-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S50257x1024 : Shape := ⟨2, ![50257, 1024]⟩
abbrev S4096x1024 : Shape := ⟨2, ![4096, 1024]⟩
abbrev S4096 : Shape := ⟨1, ![4096]⟩
abbrev S4096x4096 : Shape := ⟨2, ![4096, 4096]⟩
abbrev S4x4096 : Shape := ⟨2, ![4, 4096]⟩
abbrev S4 : Shape := ⟨1, ![4]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4x4096 : S_.BroadcastsInDim S4x4096 (![] : Fin 0 → Fin S4x4096.rank)
  reducesTo_S4x4096_S_d0_1 : S4x4096.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S4096 .f32) (main_arg13 : FVec F S4x4096 .f32) (main_arg14 : FVec F S4 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4x4096 .f32 := Host.absf main_arg13
  let main_cst_22 : FVec F S_ .f32 := constant S_ .f32 0x7F800000#32
  let main_v60 : FVec F S4x4096 .f32 := broadcastInDim S4x4096 ![] bcast_S_S4x4096 main_cst_22
  let main_v61 : IVec S4x4096 1 := cmpf .olt main_v59 main_v60
  let main_c_23 : IVec S_ 1 := constantI S_ 1 1#1
  let main_v62 : IVec S_ 1 := (fun x v => Host.reduce IntOp.andi x v reducesTo_S4x4096_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg8 : FVec F S4096 .f32) (main_arg9 : FVec F S4096x4096 .f32) (main_arg10 : FVec F S4096 .f32) (main_arg11 : FVec F S4096x4096 .f32) (main_arg12 : FVec F S4096 .f32) (main_arg13 : FVec F S4x4096 .f32) (main_arg14 : FVec F S4 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg9
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg11
  let main_cst_18 : FVec F S_ .f32 := constant S_ .f32 0x7F800000#32
  let main_v50 : FVec F S4096x4096 .f32 := broadcastInDim S4096x4096 ![] bcast_S_S4096x4096 main_cst_18
  fn_part3 (F := F) main_arg12 main_arg13 main_arg14 main_v48 main_v49 main_v50

def fn_part1 {F : FTy → Type} [FloatOps F] (main_arg5 : FVec F S4096x4096 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4x4096 .f32) (main_arg14 : FVec F S4 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg7
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S1024x128 32) (main_arg1 : FVec F S1024x128 .f32) (main_arg2 : FVec F S50257x1024 .f32) (main_arg3 : FVec F S4096x1024 .f32) (main_arg4 : FVec F S4096 .f32) (main_arg5 : FVec F S4096x4096 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4x4096 .f32) (main_arg14 : FVec F S4 .f32) : IVec S_ 1 :=
  let main_v0 : FVec F S1024x128 .f32 := Host.absf main_arg1
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S50257x1024 .f32 := Host.absf main_arg2
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_arg7 main_arg8 main_arg9 main_arg10 main_arg11 main_arg12 main_arg13 main_arg14 main_v13 main_v16
-- ==== Kernel.lean ====
abbrev S1024x128 : Shape := ⟨2, ![1024, 128]⟩
abbrev S50257x1024 : Shape := ⟨2, ![50257, 1024]⟩
abbrev S4096x1024 : Shape := ⟨2, ![4096, 1024]⟩
abbrev S4096 : Shape := ⟨1, ![4096]⟩
abbrev S4096x4096 : Shape := ⟨2, ![4096, 4096]⟩
abbrev S4x4096 : Shape := ⟨2, ![4, 4096]⟩
abbrev S4 : Shape := ⟨1, ![4]⟩
abbrev S_ : Shape := ⟨0, ![]⟩
abbrev S1024x128x1 : Shape := ⟨3, ![1024, 128, 1]⟩
abbrev S1024x128x1024 : Shape := ⟨3, ![1024, 128, 1024]⟩
abbrev S1024x1024 : Shape := ⟨2, ![1024, 1024]⟩
abbrev S1x4096 : Shape := ⟨2, ![1, 4096]⟩
abbrev S1024x4096 : Shape := ⟨2, ![1024, 4096]⟩
abbrev S512x1024 : Shape := ⟨2, ![512, 1024]⟩
abbrev S1x1024 : Shape := ⟨2, ![1, 1024]⟩
abbrev S512x4096 : Shape := ⟨2, ![512, 4096]⟩
abbrev S4096x4 : Shape := ⟨2, ![4096, 4]⟩
abbrev S1024x4 : Shape := ⟨2, ![1024, 4]⟩
abbrev S1x4 : Shape := ⟨2, ![1, 4]⟩
abbrev S1024 : Shape := ⟨1, ![1024]⟩
abbrev S1024x1 : Shape := ⟨2, ![1024, 1]⟩

abbrev nBuf : Space → Nat
  | .hbm => 69
  | .vmem => 40
  | .smem => 0
  | _ => 0

abbrev bufTy : (tb : Table) → Fin (tcTables nBuf tb) → BufTy
  | .hbm, ⟨0, _⟩ => ⟨S1024x128, .i32⟩
  | .hbm, ⟨1, _⟩ => ⟨S1024x128, .f32⟩
  | .hbm, ⟨2, _⟩ => ⟨S50257x1024, .f32⟩
  | .hbm, ⟨3, _⟩ => ⟨S4096x1024, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4x4096, .f32⟩
  | .hbm, ⟨14, _⟩ => ⟨S4, .f32⟩
  | .hbm, ⟨15, _⟩ => ⟨S_, .i32⟩
  | .hbm, ⟨16, _⟩ => ⟨S1024x128, .i32⟩
  | .hbm, ⟨17, _⟩ => ⟨S1024x128, .i1⟩
  | .hbm, ⟨18, _⟩ => ⟨S_, .i32⟩
  | .hbm, ⟨19, _⟩ => ⟨S1024x128, .i32⟩
  | .hbm, ⟨20, _⟩ => ⟨S1024x128, .i32⟩
  | .hbm, ⟨21, _⟩ => ⟨S1024x128, .i32⟩
  | .hbm, ⟨22, _⟩ => ⟨S1024x128x1, .i32⟩
  | .hbm, ⟨23, _⟩ => ⟨S1024x128x1024, .f32⟩
  | .hbm, ⟨24, _⟩ => ⟨S1024x128x1, .f32⟩
  | .hbm, ⟨25, _⟩ => ⟨S1024x128x1024, .f32⟩
  | .hbm, ⟨26, _⟩ => ⟨S1024x128x1024, .f32⟩
  | .hbm, ⟨27, _⟩ => ⟨S_, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S4096x1024, .bf16⟩
  | .hbm, ⟨34, _⟩ => ⟨S1x4096, .f32⟩
  | .hbm, ⟨35, _⟩ => ⟨S1024x4096, .bf16⟩
  | .hbm, ⟨36, _⟩ => ⟨S4096x4096, .bf16⟩
  | .hbm, ⟨37, _⟩ => ⟨S1x4096, .f32⟩
  | .hbm, ⟨38, _⟩ => ⟨S1024x4096, .bf16⟩
  | .hbm, ⟨39, _⟩ => ⟨S4096x4096, .bf16⟩
  | .hbm, ⟨40, _⟩ => ⟨S1x4096, .f32⟩
  | .hbm, ⟨41, _⟩ => ⟨S1024x4096, .bf16⟩
  | .hbm, ⟨42, _⟩ => ⟨S4096x4096, .bf16⟩
  | .hbm, ⟨43, _⟩ => ⟨S1x4096, .f32⟩
  | .hbm, ⟨44, _⟩ => ⟨S1024x4096, .bf16⟩
  | .hbm, ⟨45, _⟩ => ⟨S4096x4096, .bf16⟩
  | .hbm, ⟨46, _⟩ => ⟨S1x4096, .f32⟩
  | .hbm, ⟨47, _⟩ => ⟨S1024x4096, .bf16⟩
  | .hbm, ⟨48, _⟩ => ⟨S1024x4096, .f32⟩
  | .hbm, ⟨49, _⟩ => ⟨S4096x4, .f32⟩
  | .hbm, ⟨50, _⟩ => ⟨S1024x4, .f32⟩
  | .hbm, ⟨51, _⟩ => ⟨S1x4, .f32⟩
  | .hbm, ⟨52, _⟩ => ⟨S1024x4, .f32⟩
  | .hbm, ⟨53, _⟩ => ⟨S1024x4, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024x1, .f32⟩
  | .hbm, ⟨60, _⟩ => ⟨S1024x4, .f32⟩
  | .hbm, ⟨61, _⟩ => ⟨S1024x4, .f32⟩
  | .hbm, ⟨62, _⟩ => ⟨S1024x4, .f32⟩
  | .hbm, ⟨63, _⟩ => ⟨S_, .f32⟩
  | .hbm, ⟨64, _⟩ => ⟨S1024, .f32⟩
  | .hbm, ⟨65, _⟩ => ⟨S1024x1, .f32⟩
  | .hbm, ⟨66, _⟩ => ⟨S1024x1, .f32⟩
  | .hbm, ⟨67, _⟩ => ⟨S1024x4, .f32⟩
  | .hbm, ⟨68, _⟩ => ⟨S1024x4, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S1024x4096, .bf16⟩
  | .local _ .vmem, ⟨19, _⟩ => ⟨S1024x4096, .bf16⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S512x4096, .bf16⟩
  | .local _ .vmem, ⟨25, _⟩ => ⟨S512x4096, .bf16⟩
  | .local _ .vmem, ⟨26, _⟩ => ⟨S1024x4096, .bf16⟩
  | .local _ .vmem, ⟨27, _⟩ => ⟨S1024x4096, .bf16⟩
  | .local _ .vmem, ⟨28, _⟩ => ⟨S1x1024, .f32⟩
  | .local _ .vmem, ⟨29, _⟩ => ⟨S1x1024, .f32⟩
  | .local _ .vmem, ⟨30, _⟩ => ⟨S512x1024, .bf16⟩
  | .local _ .vmem, ⟨31, _⟩ => ⟨S512x1024, .bf16⟩
  | .local _ .vmem, ⟨32, _⟩ => ⟨S512x4096, .bf16⟩
  | .local _ .vmem, ⟨33, _⟩ => ⟨S512x4096, .bf16⟩
  | .local _ .vmem, ⟨34, _⟩ => ⟨S1024x4096, .bf16⟩
  | .local _ .vmem, ⟨35, _⟩ => ⟨S1024x4096, .bf16⟩
  | .local _ .vmem, ⟨36, _⟩ => ⟨S1x1024, .f32⟩
  | .local _ .vmem, ⟨37, _⟩ => ⟨S1x1024, .f32⟩
  | .local _ .vmem, ⟨38, _⟩ => ⟨S512x1024, .bf16⟩
  | .local _ .vmem, ⟨39, _⟩ => ⟨S512x1024, .bf16⟩
  | _, _ => ⟨S1024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_call0_cst_0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_cst_1 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_v35 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x1024_0_1_2 : S1024x128x1.BroadcastsInDim S1024x128x1024 (![0, 1, 2] : Fin 3 → Fin S1024x128x1024.rank)
  reducesTo_S1024x128x1024_S1024x1024_d1 : S1024x128x1024.ReducesTo [1] S1024x1024
  h_S_ : 0 < S_.numel
  bcast_S_S1024x1024 : S_.BroadcastsInDim S1024x1024 (![] : Fin 0 → Fin S1024x1024.rank)
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S4x4096_S4096x4_1_0 : S4x4096.Transposes [1, 0] S4096x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  reducesTo_S1024x4_S1024_d1 : S1024x4.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4_0_1 : S1024x1.BroadcastsInDim S1024x4 (![0, 1] : Fin 2 → Fin S1024x4.rank)
  gather_S50257x1024_S1024x128x1_S1024x128x1024_2_0_n_n_0_2_11024_wf : GatherDims.WF S50257x1024 S1024x128x1 S1024x128x1024 [2] [0] [] [0] [] 2 ![1, 1024]
  dot_S512x1024_S1024x1024_S512x1024_1_1_0_0_n_n_wf : DotDims.WF S512x1024 S1024x1024 S512x1024 [1] [1] [0] [0] [] []
  dot_S512x4096_S1024x4096_S512x1024_1_1_0_0_n_n_wf : DotDims.WF S512x4096 S1024x4096 S512x1024 [1] [1] [0] [0] [] []
  dot_S1024x4096_S4096x4_S1024x4_1_0_0_1_n_n_wf : DotDims.WF S1024x4096 S4096x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .bf16 = 32 ∨ (Rect.block (s := S1024x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .bf16 = 32 ∨ (Rect.block (s := S1024x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S1024x4096.size a
  hwx1_0 : ∀ i : grid1.Coords, EltTy.bits .bf16 = 32 ∨ (Rect.block (s := S1024x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x4096.size a
  hwx1_3 : ∀ i : grid1.Coords, EltTy.bits .bf16 = 32 ∨ (Rect.block (s := S1024x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S1024x4096.size a
  hwx2_0 : ∀ i : grid2.Coords, EltTy.bits .bf16 = 32 ∨ (Rect.block (s := S1024x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S1024x4096.size a
  hwx2_3 : ∀ i : grid2.Coords, EltTy.bits .bf16 = 32 ∨ (Rect.block (s := S1024x4096) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S1024x4096.size a
  hwx3_0 : ∀ i : grid3.Coords, EltTy.bits .bf16 = 32 ∨ (Rect.block (s := S1024x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S4096x4096.size a
  hwx3_1 : ∀ i : grid3.Coords, EltTy.bits .bf16 = 32 ∨ (Rect.block (s := S4096x4096) S1024x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S1024x4096.size a
  hwx3_3 : ∀ i : grid3.Coords, EltTy.bits .bf16 = 32 ∨ (Rect.block (s := S1024x4096) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S1024x4096.size a
  hwx4_0 : ∀ i : grid4.Coords, EltTy.bits .bf16 = 32 ∨ (Rect.block (s := S1024x4096) S512x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S4096x4096.size a
  hwx4_1 : ∀ i : grid4.Coords, EltTy.bits .bf16 = 32 ∨ (Rect.block (s := S4096x4096) S1024x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S1024x4096.size a
  hwx4_3 : ∀ i : grid4.Coords, EltTy.bits .bf16 = 32 ∨ (Rect.block (s := S1024x4096) S512x1024.size (cc4_transform_3 i) (hinb4_3 i)).WholeWords (EltTy.packing .bf16)

variable [Facts₀]

def gather_S50257x1024_S1024x128x1_S1024x128x1024_2_0_n_n_0_2_11024 : GatherDims S50257x1024 S1024x128x1 S1024x128x1024 where
  offsetDims := [2]
  collapsedSliceDims := [0]
  operandBatchingDims := []
  startIndicesBatchingDims := []
  startIndexMap := [0]
  indexVectorDim := 2
  sliceSizes := ![1, 1024]
  wf := gather_S50257x1024_S1024x128x1_S1024x128x1024_2_0_n_n_0_2_11024_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S1024x4096_S4096x4_S1024x4_1_0_0_1_n_n : DotDims S1024x4096 S4096x4 S1024x4 where
  lhsContracting := [1]
  rhsContracting := [0]
  lhsNonContracting := [0]
  rhsNonContracting := [1]
  lhsBatch := []
  rhsBatch := []
  wf := dot_S1024x4096_S4096x4_S1024x4_1_0_0_1_n_n_wf

abbrev win0_0 : Pipeline.Window sig grid0 :=
  Pipeline.Window.ofSpec (Memref.whole main_v13) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1024x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S1024x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v28) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S1024x128 : Shape := ⟨2, ![1024, 128]⟩
abbrev S50257x1024 : Shape := ⟨2, ![50257, 1024]⟩
abbrev S4096x1024 : Shape := ⟨2, ![4096, 1024]⟩
abbrev S4096 : Shape := ⟨1, ![4096]⟩
abbrev S4096x4096 : Shape := ⟨2, ![4096, 4096]⟩
abbrev S4x4096 : Shape := ⟨2, ![4, 4096]⟩
abbrev S4 : Shape := ⟨1, ![4]⟩
abbrev S_ : Shape := ⟨0, ![]⟩
abbrev S1024x128x1 : Shape := ⟨3, ![1024, 128, 1]⟩
abbrev S1024x128x1024 : Shape := ⟨3, ![1024, 128, 1024]⟩
abbrev S1024x1024 : Shape := ⟨2, ![1024, 1024]⟩
abbrev S1024x4096 : Shape := ⟨2, ![1024, 4096]⟩
abbrev S1x4096 : Shape := ⟨2, ![1, 4096]⟩
abbrev S4096x4 : Shape := ⟨2, ![4096, 4]⟩
abbrev S1024x4 : Shape := ⟨2, ![1024, 4]⟩
abbrev S1x4 : Shape := ⟨2, ![1, 4]⟩
abbrev S1024 : Shape := ⟨1, ![1024]⟩
abbrev S1024x1 : Shape := ⟨2, ![1024, 1]⟩

abbrev nBuf : Space → Nat
  | .hbm => 77
  | .vmem => 0
  | .smem => 0
  | _ => 0

abbrev bufTy : (tb : Table) → Fin (tcTables nBuf tb) → BufTy
  | .hbm, ⟨0, _⟩ => ⟨S1024x128, .i32⟩
  | .hbm, ⟨1, _⟩ => ⟨S1024x128, .f32⟩
  | .hbm, ⟨2, _⟩ => ⟨S50257x1024, .f32⟩
  | .hbm, ⟨3, _⟩ => ⟨S4096x1024, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4x4096, .f32⟩
  | .hbm, ⟨14, _⟩ => ⟨S4, .f32⟩
  | .hbm, ⟨15, _⟩ => ⟨S_, .i32⟩
  | .hbm, ⟨16, _⟩ => ⟨S1024x128, .i32⟩
  | .hbm, ⟨17, _⟩ => ⟨S1024x128, .i1⟩
  | .hbm, ⟨18, _⟩ => ⟨S_, .i32⟩
  | .hbm, ⟨19, _⟩ => ⟨S1024x128, .i32⟩
  | .hbm, ⟨20, _⟩ => ⟨S1024x128, .i32⟩
  | .hbm, ⟨21, _⟩ => ⟨S1024x128, .i32⟩
  | .hbm, ⟨22, _⟩ => ⟨S1024x128x1, .i32⟩
  | .hbm, ⟨23, _⟩ => ⟨S1024x128x1024, .f32⟩
  | .hbm, ⟨24, _⟩ => ⟨S1024x128x1, .f32⟩
  | .hbm, ⟨25, _⟩ => ⟨S1024x128x1024, .f32⟩
  | .hbm, ⟨26, _⟩ => ⟨S1024x128x1024, .f32⟩
  | .hbm, ⟨27, _⟩ => ⟨S_, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x4096, .f32⟩
  | .hbm, ⟨33, _⟩ => ⟨S1024x4096, .f32⟩
  | .hbm, ⟨34, _⟩ => ⟨S1x4096, .f32⟩
  | .hbm, ⟨35, _⟩ => ⟨S1024x4096, .f32⟩
  | .hbm, ⟨36, _⟩ => ⟨S1024x4096, .f32⟩
  | .hbm, ⟨37, _⟩ => ⟨S4096x4096, .f32⟩
  | .hbm, ⟨38, _⟩ => ⟨S1024x4096, .f32⟩
  | .hbm, ⟨39, _⟩ => ⟨S1x4096, .f32⟩
  | .hbm, ⟨40, _⟩ => ⟨S1024x4096, .f32⟩
  | .hbm, ⟨41, _⟩ => ⟨S1024x4096, .f32⟩
  | .hbm, ⟨42, _⟩ => ⟨S4096x4096, .f32⟩
  | .hbm, ⟨43, _⟩ => ⟨S1024x4096, .f32⟩
  | .hbm, ⟨44, _⟩ => ⟨S1x4096, .f32⟩
  | .hbm, ⟨45, _⟩ => ⟨S1024x4096, .f32⟩
  | .hbm, ⟨46, _⟩ => ⟨S1024x4096, .f32⟩
  | .hbm, ⟨47, _⟩ => ⟨S4096x4096, .f32⟩
  | .hbm, ⟨48, _⟩ => ⟨S1024x4096, .f32⟩
  | .hbm, ⟨49, _⟩ => ⟨S1x4096, .f32⟩
  | .hbm, ⟨50, _⟩ => ⟨S1024x4096, .f32⟩
  | .hbm, ⟨51, _⟩ => ⟨S1024x4096, .f32⟩
  | .hbm, ⟨52, _⟩ => ⟨S4096x4096, .f32⟩
  | .hbm, ⟨53, _⟩ => ⟨S1024x4096, .f32⟩
  | .hbm, ⟨54, _⟩ => ⟨S1x4096, .f32⟩
  | .hbm, ⟨55, _⟩ => ⟨S1024x4096, .f32⟩
  | .hbm, ⟨56, _⟩ => ⟨S1024x4096, .f32⟩
  | .hbm, ⟨57, _⟩ => ⟨S4096x4, .f32⟩
  | .hbm, ⟨58, _⟩ => ⟨S1024x4, .f32⟩
  | .hbm, ⟨59, _⟩ => ⟨S1x4, .f32⟩
  | .hbm, ⟨60, _⟩ => ⟨S1024x4, .f32⟩
  | .hbm, ⟨61, _⟩ => ⟨S1024x4, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024x1, .f32⟩
  | .hbm, ⟨68, _⟩ => ⟨S1024x4, .f32⟩
  | .hbm, ⟨69, _⟩ => ⟨S1024x4, .f32⟩
  | .hbm, ⟨70, _⟩ => ⟨S1024x4, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S1024x4, .f32⟩
  | .hbm, ⟨76, _⟩ => ⟨S1024x4, .f32⟩
  | _, _ => ⟨S1024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_call0_cst_0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_cst_1 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x1024_0_1_2 : S1024x128x1.BroadcastsInDim S1024x128x1024 (![0, 1, 2] : Fin 3 → Fin S1024x128x1024.rank)
  reducesTo_S1024x128x1024_S1024x1024_d1 : S1024x128x1024.ReducesTo [1] S1024x1024
  h_S_ : 0 < S_.numel
  bcast_S_S1024x1024 : S_.BroadcastsInDim S1024x1024 (![] : Fin 0 → Fin S1024x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S4096x4096_S4096x4096_1_0 : S4096x4096.Transposes [1, 0] S4096x4096
  transposes_S4x4096_S4096x4_1_0 : S4x4096.Transposes [1, 0] S4096x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  reducesTo_S1024x4_S1024_d1 : S1024x4.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4_0_1 : S1024x1.BroadcastsInDim S1024x4 (![0, 1] : Fin 2 → Fin S1024x4.rank)
  gather_S50257x1024_S1024x128x1_S1024x128x1024_2_0_n_n_0_2_11024_wf : GatherDims.WF S50257x1024 S1024x128x1 S1024x128x1024 [2] [0] [] [0] [] 2 ![1, 1024]
  dot_S1024x1024_S1024x4096_S1024x4096_1_0_0_1_n_n_wf : DotDims.WF S1024x1024 S1024x4096 S1024x4096 [1] [0] [0] [1] [] []
  dot_S1024x4096_S4096x4096_S1024x4096_1_0_0_1_n_n_wf : DotDims.WF S1024x4096 S4096x4096 S1024x4096 [1] [0] [0] [1] [] []
  dot_S1024x4096_S4096x4_S1024x4_1_0_0_1_n_n_wf : DotDims.WF S1024x4096 S4096x4 S1024x4 [1] [0] [0] [1] [] []

variable [Facts₀]

def gather_S50257x1024_S1024x128x1_S1024x128x1024_2_0_n_n_0_2_11024 : GatherDims S50257x1024 S1024x128x1 S1024x128x1024 where
  offsetDims := [2]
  collapsedSliceDims := [0]
  operandBatchingDims := []
  startIndicesBatchingDims := []
  startIndexMap := [0]
  indexVectorDim := 2
  sliceSizes := ![1, 1024]
  wf := gather_S50257x1024_S1024x128x1_S1024x128x1024_2_0_n_n_0_2_11024_wf
def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S1024x4096_S4096x4_S1024x4_1_0_0_1_n_n : DotDims S1024x4096 S4096x4 S1024x4 where
  lhsContracting := [1]
  rhsContracting := [0]
  lhsNonContracting := [0]
  rhsNonContracting := [1]
  lhsBatch := []
  rhsBatch := []
  wf := dot_S1024x4096_S4096x4_S1024x4_1_0_0_1_n_n_wf

class Facts : Prop extends Facts₀ where

variable [Facts]
-- ==== Proof.ValueRun.lean ====
/-
  The whole program's run with its RESULT kept in view.

  The program is a line of host operations cut by five pipelined regions.  Its run is read boundary by
  boundary: the contents of the device's buffers after each stretch of host operations and after each
  region's write-backs, folded from the launch memory.  Every weakly fair execution terminates without a
  fault in a state whose unscoped buffers hold the last boundary's contents; read at the result buffer and
  at the fifteen argument buffers this gives the result as the fold's value there and the arguments as
  launched.
-/
import proofs.«168182_j89678917141217_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v35) = W12 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v35 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.ValueRun

end
-- ==== Proof.BlockDense.lean ====
/-
  One grid point of a dense layer, read at the ideal values.

  The body takes a block of 512 rows of the activations `x`, a block of 1024 rows of the weights `w`
  (both with the full feature axis), and the matching 1024 entries of the bias `b` laid out as one row.
  It contracts the feature axis of the two blocks into a zero accumulator, adds the bias row to every
  row of the product, and narrows the float format on the way out.  On extended reals the narrowing is
  the identity and the zero accumulator contributes nothing, so the stored block is

      out[p, q] = Σ_k x[p, k] · w[q, k] + b[0, q].

  The first layer has 1024 features, the other four 4096; the two statements differ only in that extent.
-/
import proofs.«168182_j89678917141217_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockDense

open Cert.KernelIdeal Cert.KernelIdeal.Gen Idealize.ShloMosaic Idealize.ShloMosaic.ValueIdx

/-- The contraction record of the first layer's block product: left axis 1 against right axis 1. -/
abbrev D1024 := dot_S512x1024_S1024x1024_S512x1024_1_1_0_0_n_n
/-- The contraction record of the later layers' block product: left axis 1 against right axis 1. -/
abbrev D4096 := dot_S512x4096_S1024x4096_S512x1024_1_1_0_0_n_n

/-- The left operand's row is the output's row. -/
theorem lhs1024_row (j : S512x1024.Idx) (k : D1024.contr.Idx) : (D1024.lhsIdx j k 0).val = (j 0).val := by
  unfold DotDims.lhsIdx
  rw [dif_neg (show ¬(0 : Fin S512x1024.rank) ∈ D1024.lhsBatch by decide),
    dif_pos (show (0 : Fin S512x1024.rank) ∈ D1024.lhsNonContracting by decide)]
  rfl

/-- The right operand's row is the output's column. -/
theorem rhs1024_row (j : S512x1024.Idx) (k : D1024.contr.Idx) : (D1024.rhsIdx j k 0).val = (j 1).val := by
  unfold DotDims.rhsIdx
  rw [dif_neg (show ¬(0 : Fin S1024x1024.rank) ∈ D1024.rhsBatch by decide),
    dif_pos (show (0 : Fin S1024x1024.rank) ∈ D1024.rhsNonContracting by decide)]
  rfl

/-- The block product into a zero accumulator is the plain sum over the 1024 shared features. -/
theorem matmul1024_at (l : FVec Ideal S512x1024 .bf16) (r : FVec Ideal S1024x1024 .bf16) (p : Fin 512) (q : Fin 1024) :
    matmul (F := Ideal) D1024 none l r (constant (F := Ideal) S512x1024 .f32 0x00000000#32) (ix2 p q)
      = ∑ k : Fin 1024, l (ix2 p k) * r (ix2 q k) := by
  simp only [matmul]
  rw [Ideal.matmul_constant_zero_apply, ← Equiv.sum_comp (contrEquiv1 D1024 1024 rfl rfl).symm]
  refine Finset.sum_congr rfl fun k _ => ?_
  have hk := contrEquiv1_symm_val D1024 1024 rfl rfl k
  have el : D1024.lhsIdx (ix2 p q) ((contrEquiv1 D1024 1024 rfl rfl).symm k) = ix2 p k := funext fun a => Fin.ext (by
    match a with
    | ⟨0, _⟩ => exact lhs1024_row _ _
    | ⟨1, _⟩ => exact (D1024.lhsIdx_val_of_single rfl _ _).trans hk)
  have er : D1024.rhsIdx (ix2 p q) ((contrEquiv1 D1024 1024 rfl rfl).symm k) = ix2 q k := funext fun a => Fin.ext (by
    match a with
    | ⟨0, _⟩ => exact rhs1024_row _ _
    | ⟨1, _⟩ => exact (D1024.rhsIdx_val_of_single rfl _ _).trans hk)
  rw [el, er]

/-- The bias row spread over the 512 rows of the block reads, at any row, the row's one copy. -/
theorem bias_at (b : FVec Ideal S1x1024 .f32) (p : Fin 512) (q : Fin 1024) :
    broadcastTo S512x1024 b broadcasts_S1x1024_S512x1024 (ix2 p q) = b (ix2 0 q) :=
  broadcastTo_apply b broadcasts_S1x1024_S512x1024 (ix2 p q) (ix2 0 q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- What the first layer's body stores, entry by entry. -/
theorem k0_pay1_at (x : Vec Ideal S512x1024 .bf16) (w : Vec Ideal S1024x1024 .bf16) (b : Vec Ideal S1x1024 .f32)
    (p : Fin 512) (q : Fin 1024) :
    k0_pay1 (F := Ideal) x w b (ix2 p q) = (∑ k : Fin 1024, x (ix2 p k) * w (ix2 q k)) + b (ix2 0 q) := by
  unfold k0_pay1
  rw [shapeCast_self, shapeCast_self, shapeCast_self]
  show matmul (F := Ideal) D1024 none x w (constant (F := Ideal) S512x1024 .f32 0x00000000#32) (ix2 p q)
      + broadcastTo S512x1024 b broadcasts_S1x1024_S512x1024 (ix2 p q) = _
  rw [matmul1024_at, bias_at]

/-- The left operand's row is the output's row. -/
theorem lhs4096_row (j : S512x1024.Idx) (k : D4096.contr.Idx) : (D4096.lhsIdx j k 0).val = (j 0).val := by
  unfold DotDims.lhsIdx
  rw [dif_neg (show ¬(0 : Fin S512x4096.rank) ∈ D4096.lhsBatch by decide),
    dif_pos (show (0 : Fin S512x4096.rank) ∈ D4096.lhsNonContracting by decide)]
  rfl

/-- The right operand's row is the output's column. -/
theorem rhs4096_row (j : S512x1024.Idx) (k : D4096.contr.Idx) : (D4096.rhsIdx j k 0).val = (j 1).val := by
  unfold DotDims.rhsIdx
  rw [dif_neg (show ¬(0 : Fin S1024x4096.rank) ∈ D4096.rhsBatch by decide),
    dif_pos (show (0 : Fin S1024x4096.rank) ∈ D4096.rhsNonContracting by decide)]
  rfl

/-- The block product into a zero accumulator is the plain sum over the 4096 shared features. -/
theorem matmul4096_at (l : FVec Ideal S512x4096 .bf16) (r : FVec Ideal S1024x4096 .bf16) (p : Fin 512) (q : Fin 1024) :
    matmul (F := Ideal) D4096 none l r (constant (F := Ideal) S512x1024 .f32 0x00000000#32) (ix2 p q)
      = ∑ k : Fin 4096, l (ix2 p k) * r (ix2 q k) := by
  simp only [matmul]
  rw [Ideal.matmul_constant_zero_apply, ← Equiv.sum_comp (contrEquiv1 D4096 4096 rfl rfl).symm]
  refine Finset.sum_congr rfl fun k _ => ?_
  have hk := contrEquiv1_symm_val D4096 4096 rfl rfl k
  have el : D4096.lhsIdx (ix2 p q) ((contrEquiv1 D4096 4096 rfl rfl).symm k) = ix2 p k := funext fun a => Fin.ext (by
    match a with
    | ⟨0, _⟩ => exact lhs4096_row _ _
    | ⟨1, _⟩ => exact (D4096.lhsIdx_val_of_single rfl _ _).trans hk)
  have er : D4096.rhsIdx (ix2 p q) ((contrEquiv1 D4096 4096 rfl rfl).symm k) = ix2 q k := funext fun a => Fin.ext (by
    match a with
    | ⟨0, _⟩ => exact rhs4096_row _ _
    | ⟨1, _⟩ => exact (D4096.rhsIdx_val_of_single rfl _ _).trans hk)
  rw [el, er]

/-- What the second layer's body stores, entry by entry. -/
theorem k1_pay1_at (x : Vec Ideal S512x4096 .bf16) (w : Vec Ideal S1024x4096 .bf16) (b : Vec Ideal S1x1024 .f32)
    (p : Fin 512) (q : Fin 1024) :
    k1_pay1 (F := Ideal) x w b (ix2 p q) = (∑ k : Fin 4096, x (ix2 p k) * w (ix2 q k)) + b (ix2 0 q) := by
  unfold k1_pay1
  rw [shapeCast_self, shapeCast_self, shapeCast_self]
  show matmul (F := Ideal) D4096 none x w (constant (F := Ideal) S512x1024 .f32 0x00000000#32) (ix2 p q)
      + broadcastTo S512x1024 b broadcasts_S1x1024_S512x1024 (ix2 p q) = _
  rw [matmul4096_at, bias_at]

/-- The third, fourth and fifth layers' bodies are the second's, operation for operation. -/
theorem k2_pay1_at (x : Vec Ideal S512x4096 .bf16) (w : Vec Ideal S1024x4096 .bf16) (b : Vec Ideal S1x1024 .f32)
    (p : Fin 512) (q : Fin 1024) :
    k2_pay1 (F := Ideal) x w b (ix2 p q) = (∑ k : Fin 4096, x (ix2 p k) * w (ix2 q k)) + b (ix2 0 q) :=
  k1_pay1_at x w b p q
theorem k3_pay1_at (x : Vec Ideal S512x4096 .bf16) (w : Vec Ideal S1024x4096 .bf16) (b : Vec Ideal S1x1024 .f32)
    (p : Fin 512) (q : Fin 1024) :
    k3_pay1 (F := Ideal) x w b (ix2 p q) = (∑ k : Fin 4096, x (ix2 p k) * w (ix2 q k)) + b (ix2 0 q) :=
  k1_pay1_at x w b p q
theorem k4_pay1_at (x : Vec Ideal S512x4096 .bf16) (w : Vec Ideal S1024x4096 .bf16) (b : Vec Ideal S1x1024 .f32)
    (p : Fin 512) (q : Fin 1024) :
    k4_pay1 (F := Ideal) x w b (ix2 p q) = (∑ k : Fin 4096, x (ix2 p k) * w (ix2 q k)) + b (ix2 0 q) :=
  k1_pay1_at x w b p q

end Cert.KernelIdeal.BlockDense

end
-- ==== Proof.Dense.lean ====
/-
  A dense layer on extended reals, as one function of its whole arrays.

  With activations `X` of 1024 rows, weights `Wt` of 4096 rows (one row per output feature, the input
  features along the row) and the bias `B` laid out as a single row of 4096 entries,

      dense X Wt B [r, c] = Σ_k X[r, k] · Wt[c, k] + B[0, c].

  The first layer of the network has 1024 input features, the other four 4096.
-/
import Idealize.ShloMosaic.PureOps.Ideal
import Idealize.ShloMosaic.Lib.ValueIdx

noncomputable section

namespace Cert.Dense

open Idealize.ShloMosaic Idealize.ShloMosaic.ValueIdx

/-- The layer with 1024 input features. -/
def dense1024 (X : (⟨2, ![1024, 1024]⟩ : Shape).Idx → EReal) (Wt : (⟨2, ![4096, 1024]⟩ : Shape).Idx → EReal)
    (B : (⟨2, ![1, 4096]⟩ : Shape).Idx → EReal) : (⟨2, ![1024, 4096]⟩ : Shape).Idx → EReal :=
  fun i => (∑ k : Fin 1024, X (ix2 (i 0) k) * Wt (ix2 (i 1) k)) + B (ix2 0 (i 1))

/-- The layer with 4096 input features. -/
def dense4096 (X : (⟨2, ![1024, 4096]⟩ : Shape).Idx → EReal) (Wt : (⟨2, ![4096, 4096]⟩ : Shape).Idx → EReal)
    (B : (⟨2, ![1, 4096]⟩ : Shape).Idx → EReal) : (⟨2, ![1024, 4096]⟩ : Shape).Idx → EReal :=
  fun i => (∑ k : Fin 4096, X (ix2 (i 0) k) * Wt (ix2 (i 1) k)) + B (ix2 0 (i 1))

/-- The bias vector laid out as one row. -/
def row (b : (⟨1, ![4096]⟩ : Shape).Idx → EReal) : (⟨2, ![1, 4096]⟩ : Shape).Idx → EReal :=
  fun j => b (ix1 (j 1))

end Cert.Dense

end
-- ==== Proof.Layer0.lean ====
/-
  Region 0 of the program: the output array after the pipeline has run over its grid.

  The grid has 4 column tiles (outer) by 2 row tiles (inner).  At a point the pipeline stages rows
  [512·i, 512·i + 512) of the activations, rows [1024·j, 1024·j + 1024) of the weights and entries
  [1024·j, 1024·j + 1024) of the bias row, and writes back the block of the output at block row i, block
  column j.  Each input block sits at a fixed place relative to the output block, so what a point writes
  back is the restriction to its block of ONE function of the three whole arrays,

      out[r, c] = Σ_k x[r, k] · w[c, k] + b[0, c]       (k over the 1024 features),

  and the eight blocks tile the 1024 × 4096 output: the point covering entry (r, c) is the one with
  i = r / 512 and j = c / 1024.  Hence the array the region leaves is that function everywhere.
-/
import proofs.«168182_j89678917141217_1_alg».proof.Proof.Gen.KernelIdeal.Frame
import proofs.«168182_j89678917141217_1_alg».proof.Proof.BlockDense
import proofs.«168182_j89678917141217_1_alg».proof.Proof.Dense

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each input block sits relative to the output block, decided over the eight grid points: the
    activations' block row is the output's block row, the weights' block row and the bias's block column are
    the output's block column, the feature axis is never tiled; the output's block indices stay in range. -/
theorem idx_facts : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 1 ∧ win0_3.index t (1 : Fin 2) ≤ 3 :=
  (by decide +kernel : ∀ t : Fin grid0.N, _)

/-- Every block of the output is some point's. -/
theorem idx_onto : ∀ (q0 : Fin 2) (q1 : Fin 4), ∃ t : Fin cfg0.N, win0_3.index t = ![q0.val, q1.val] :=
  (by decide +kernel : ∀ (q0 : Fin 2) (q1 : Fin 4), ∃ t : Fin grid0.N, win0_3.index t = ![q0.val, q1.val])

/-- What point `t` writes back is block `t` of the layer's function of the arrays the region was entered with. -/
theorem flushed_eq (c : Dev nD) (t : Fin cfg0.N) :
    (dat0 V c).flushed 3 t = ((cfg0.win 3).blk t).view.read (Elt Ideal)
      (Cert.Dense.dense1024 (V c main_v13) (V c main_v14) (V c main_v15)) := by
  show (cfg0.win 3).cut (grid0.coords t) ((dat0 V c).after 3 t) = _
  rw [after0_3]
  unfold out0_3
  rw [View.canon_unit_zero zero_off]
  simp only [View.ld_unit_zero (S := S512x1024) zero_off, View.ld_unit_zero (S := S1024x1024) zero_off,
    View.ld_unit_zero (S := S1x1024) zero_off]
  obtain ⟨e0, e1, e2, e3, e4, e5, -, -⟩ := idx_facts t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (iblk0 V c 2 t) (ix2 p q)
      = Cert.Dense.dense1024 (V c main_v13) (V c main_v14) (V c main_v15) (((cfg0.win 3).blk t).view.emb (ix2 p q))
  rw [BlockDense.k0_pay1_at]
  unfold Cert.Dense.dense1024
  have hx : ∀ k : Fin 1024, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have hw : ∀ k : Fin 1024, ((cfg0.win 1).blk t).view.emb (ix2 q k)
      = ix2 ((((cfg0.win 3).blk t).view.emb (ix2 p q)) 1) k := fun k => by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * k.val = k.val; omega
  have hb : ((cfg0.win 2).blk t).view.emb (ix2 0 q)
      = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  refine congrArg₂ (fun a b : EReal => a + b) (Finset.sum_congr rfl fun k _ => ?_) ?_
  · exact congrArg₂ (fun a b : EReal => a * b) (congrArg (V c main_v13) (hx k)) (congrArg (V c main_v14) (hw k))
  · exact congrArg (V c main_v15) hb

/-- An entry of the output is in point `t`'s block iff each coordinate is in the block's range on its axis. -/
theorem mem_blk (t : Fin cfg0.N) (i : S1024x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v16).slice (win0_3.rect t)).set ↔ _
  rw [View.set_slice_whole, Rect.mem_set_unit]
  exact Iff.rfl

/-- Every entry of the output is in the block of the point at block row r / 512, block column c / 1024. -/
theorem covered (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array the region leaves is the layer's function of the arrays it was entered with. -/
theorem final (c : Dev nD) :
    (dat0 V c).arrAt 3 cfg0.N = Cert.Dense.dense1024 (V c main_v13) (V c main_v14) (V c main_v15) :=
  (dat0 V c).arrAt_eq_of_cover 3 _ (fun t _ => flushed_eq V c t) covered

end Cert.KernelIdeal.Layer0

end
-- ==== Proof.Layer1.lean ====
/-
  Region 1 of the program: the output array after the pipeline has run over its grid.

  The grid has 4 column tiles (outer) by 2 row tiles (inner).  At a point the pipeline stages rows
  [512·i, 512·i + 512) of the activations, rows [1024·j, 1024·j + 1024) of the weights and entries
  [1024·j, 1024·j + 1024) of the bias row, and writes back the block of the output at block row i, block
  column j.  Each input block sits at a fixed place relative to the output block, so what a point writes
  back is the restriction to its block of ONE function of the three whole arrays,

      out[r, c] = Σ_k x[r, k] · w[c, k] + b[0, c]       (k over the 4096 features),

  and the eight blocks tile the 1024 × 4096 output: the point covering entry (r, c) is the one with
  i = r / 512 and j = c / 1024.  Hence the array the region leaves is that function everywhere.
-/
import proofs.«168182_j89678917141217_1_alg».proof.Proof.Gen.KernelIdeal.Frame
import proofs.«168182_j89678917141217_1_alg».proof.Proof.BlockDense
import proofs.«168182_j89678917141217_1_alg».proof.Proof.Dense

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each input block sits relative to the output block, decided over the eight grid points: the
    activations' block row is the output's block row, the weights' block row and the bias's block column are
    the output's block column, the feature axis is never tiled; the output's block indices stay in range. -/
theorem idx_facts : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 1 ∧ win1_3.index t (1 : Fin 2) ≤ 3 :=
  (by decide +kernel : ∀ t : Fin grid1.N, _)

/-- Every block of the output is some point's. -/
theorem idx_onto : ∀ (q0 : Fin 2) (q1 : Fin 4), ∃ t : Fin cfg1.N, win1_3.index t = ![q0.val, q1.val] :=
  (by decide +kernel : ∀ (q0 : Fin 2) (q1 : Fin 4), ∃ t : Fin grid1.N, win1_3.index t = ![q0.val, q1.val])

/-- What point `t` writes back is block `t` of the layer's function of the arrays the region was entered with. -/
theorem flushed_eq (c : Dev nD) (t : Fin cfg1.N) :
    (dat1 V c).flushed 3 t = ((cfg1.win 3).blk t).view.read (Elt Ideal)
      (Cert.Dense.dense4096 (V c main_v16) (V c main_v17) (V c main_v18)) := by
  show (cfg1.win 3).cut (grid1.coords t) ((dat1 V c).after 3 t) = _
  rw [after1_3]
  unfold out1_3
  rw [View.canon_unit_zero zero_off]
  simp only [View.ld_unit_zero (S := S512x4096) zero_off, View.ld_unit_zero (S := S1024x4096) zero_off,
    View.ld_unit_zero (S := S1x1024) zero_off]
  obtain ⟨e0, e1, e2, e3, e4, e5, -, -⟩ := idx_facts t
  funext j
  obtain ⟨p, q, rfl⟩ : ∃ (p : Fin 512) (q : Fin 1024), j = ix2 p q := ⟨j 0, j 1, eq_ix2 j⟩
  show k1_pay1 (F := Ideal) (iblk1 V c 0 t) (iblk1 V c 1 t) (iblk1 V c 2 t) (ix2 p q)
      = Cert.Dense.dense4096 (V c main_v16) (V c main_v17) (V c main_v18) (((cfg1.win 3).blk t).view.emb (ix2 p q))
  rw [BlockDense.k1_pay1_at]
  unfold Cert.Dense.dense4096
  have hx : ∀ k : Fin 4096, ((cfg1.win 0).blk t).view.emb (ix2 p k)
      = ix2 ((((cfg1.win 3).blk t).view.emb (ix2 p q)) 0) k := fun k => by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 4096 + 1 * k.val = k.val; omega
  have hw : ∀ k : Fin 4096, ((cfg1.win 1).blk t).view.emb (ix2 q k)
      = ix2 ((((cfg1.win 3).blk t).view.emb (ix2 p q)) 1) k := fun k => by
    funext a; apply Fin.ext
    match a with
    | ⟨0, _⟩ => show win1_1.index t (0 : Fin 2) * 1024 + 1 * q.val = win1_3.index t (1 : Fin 2) * 1024 + 1 * q.val; omega
    | ⟨1, _⟩ => show win1_1.index t (1 : Fin 2) * 4096 + 1 * k.val = k.val; omega
  have hb : ((cfg1.win 2).blk t).view.emb (ix2 0 q)
      = ix2 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  refine congrArg₂ (fun a b : EReal => a + b) (Finset.sum_congr rfl fun k _ => ?_) ?_
  · exact congrArg₂ (fun a b : EReal => a * b) (congrArg (V c main_v16) (hx k)) (congrArg (V c main_v17) (hw k))
  · exact congrArg (V c main_v18) hb

/-- An entry of the output is in point `t`'s block iff each coordinate is in the block's range on its axis. -/
theorem mem_blk (t : Fin cfg1.N) (i : S1024x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v19).slice (win1_3.rect t)).set ↔ _
  rw [View.set_slice_whole, Rect.mem_set_unit]
  exact Iff.rfl

/-- Every entry of the output is in the block of the point at block row r / 512, block column c / 1024. -/
theorem covered (i : S1024x4096.Idx) :
    ∃ t : Fin cfg1.N, (cfg1.win 3).flush t = true ∧ i ∈ ((cfg1.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The output array the region leaves is the layer's function of the arrays it was entered with. -/
theorem final (c : Dev nD) :
    (dat1 V c).arrAt 3 cfg1.N = Cert.Dense.dense4096 (V c main_v16) (V c main_v17) (V c main_v18) :=
  (dat1 V c).arrAt_eq_of_cover 3 _ (fun t _ => flushed_eq V c t) covered

end Cert.KernelIdeal.Layer1

end
-- ==== Proof.Layer2.lean ====
/-
  Region 2 of the program: the output array after the pipeline has run over its grid.

  The grid has 4 column tiles (outer) by 2 row tiles (inner).  At a point the pipeline stages rows
  [512·i, 512·i + 512) of the activations, rows [1024·j, 1024·j + 1024) of the weights and entries
  [1024·j, 1024·j + 1024) of the bias row, and writes back the block of the output at block row i, block
  column j.  Each input block sits at a fixed place relative to the output block, so what a point writes
  back is the restriction to its block of ONE function of the three whole arrays,

      out[r, c] = Σ_k x[r, k] · w[c, k] + b[0, c]       (k over the 4096 features),

  and the eight blocks tile the 1024 × 4096 output: the point covering entry (r, c) is the one with
  i = r / 512 and j = c / 1024.  Hence the array the region leaves is that function everywhere.
-/
import proofs.«168182_j89678917141217_1_alg».proof.Proof.Gen.KernelIdeal.Frame
import proofs.«168182_j89678917141217_1_alg».proof.Proof.BlockDense
import proofs.«168182_j89678917141217_1_alg».proof.Proof.Dense

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each input block sits relative to the output block, decided over the eight grid points: the
    activations' block row is the output's block row, the weights' block row and the bias's block column are
    the output's block column, the feature axis is never tiled; the output's block indices stay in range. -/
theorem idx_facts : ∀ t : Fin cfg2.N,
    win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 1 ∧ win2_3.index t (1 : Fin 2) ≤ 3 :=
  (by decide +kernel : ∀ t : Fin grid2.N, _)

/-- Every block of the output is some point's. -/
theorem idx_onto : ∀ (q0 : Fin 2) (q1 : Fin 4), ∃ t : Fin cfg2.N, win2_3.index t = ![q0.val, q1.val] :=
  (by decide +kernel : ∀ (q0 : Fin 2) (q1 : Fin 4), ∃ t : Fin grid2.N, win2_3.index t = ![q0.val, q1.val])

/-- What point `t` writes back is block `t` of the layer's function of the arrays the region was entered with. -/
theorem flushed_eq (c : Dev nD) (t : Fin cfg2.N) :
    (dat2 V c).flushed 3 t = ((cfg2.win 3).blk t).view.read (Elt Ideal)
      (Cert.Dense.dense4096 (V c main_v19) (V c main_v20) (V c main_v21)) := by
  show (cfg2.win 3).cut (grid2.coords t) ((dat2 V c).after 3 t) = _
  rw [after2_3]
  unfold out2_3
  rw [View.canon_unit_zero zero_off]
  simp only [View.ld_unit_zero (S := S512x4096) zero_off, View.ld_unit_zero (S := S1024x4096) zero_off,
    View.ld_unit_zero (S := S1x1024) zero_off]
  obtain ⟨e0, e1, e2, e3, e4, e5, -, -⟩ := idx_facts t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
      = Cert.Dense.dense4096 (V c main_v19) (V c main_v20) (V c main_v21) (((cfg2.win 3).blk t).view.emb (ix2 p q))
  rw [BlockDense.k2_pay1_at]
  unfold Cert.Dense.dense4096
  have hx : ∀ k : Fin 4096, ((cfg2.win 0).blk t).view.emb (ix2 p k)
      = ix2 ((((cfg2.win 3).blk t).view.emb (ix2 p q)) 0) k := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 4096 + 1 * k.val = k.val; omega
  have hw : ∀ k : Fin 4096, ((cfg2.win 1).blk t).view.emb (ix2 q k)
      = ix2 ((((cfg2.win 3).blk t).view.emb (ix2 p q)) 1) k := fun k => by
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 4096 + 1 * k.val = k.val; omega
  have hb : ((cfg2.win 2).blk t).view.emb (ix2 0 q)
      = ix2 0 ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  refine congrArg₂ (fun a b : EReal => a + b) (Finset.sum_congr rfl fun k _ => ?_) ?_
  · exact congrArg₂ (fun a b : EReal => a * b) (congrArg (V c main_v19) (hx k)) (congrArg (V c main_v20) (hw k))
  · exact congrArg (V c main_v21) hb

/-- An entry of the output is in point `t`'s block iff each coordinate is in the block's range on its axis. -/
theorem mem_blk (t : Fin cfg2.N) (i : S1024x4096.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v22).slice (win2_3.rect t)).set ↔ _
  rw [View.set_slice_whole, Rect.mem_set_unit]
  exact Iff.rfl

/-- Every entry of the output is in the block of the point at block row r / 512, block column c / 1024. -/
theorem covered (i : S1024x4096.Idx) :
    ∃ t : Fin cfg2.N, (cfg2.win 3).flush t = true ∧ i ∈ ((cfg2.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array the region leaves is the layer's function of the arrays it was entered with. -/
theorem final (c : Dev nD) :
    (dat2 V c).arrAt 3 cfg2.N = Cert.Dense.dense4096 (V c main_v19) (V c main_v20) (V c main_v21) :=
  (dat2 V c).arrAt_eq_of_cover 3 _ (fun t _ => flushed_eq V c t) covered

end Cert.KernelIdeal.Layer2

end
-- ==== Proof.Layer3.lean ====
/-
  Region 3 of the program: the output array after the pipeline has run over its grid.

  The grid has 4 column tiles (outer) by 2 row tiles (inner).  At a point the pipeline stages rows
  [512·i, 512·i + 512) of the activations, rows [1024·j, 1024·j + 1024) of the weights and entries
  [1024·j, 1024·j + 1024) of the bias row, and writes back the block of the output at block row i, block
  column j.  Each input block sits at a fixed place relative to the output block, so what a point writes
  back is the restriction to its block of ONE function of the three whole arrays,

      out[r, c] = Σ_k x[r, k] · w[c, k] + b[0, c]       (k over the 4096 features),

  and the eight blocks tile the 1024 × 4096 output: the point covering entry (r, c) is the one with
  i = r / 512 and j = c / 1024.  Hence the array the region leaves is that function everywhere.
-/
import proofs.«168182_j89678917141217_1_alg».proof.Proof.Gen.KernelIdeal.Frame
import proofs.«168182_j89678917141217_1_alg».proof.Proof.BlockDense
import proofs.«168182_j89678917141217_1_alg».proof.Proof.Dense

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each input block sits relative to the output block, decided over the eight grid points: the
    activations' block row is the output's block row, the weights' block row and the bias's block column are
    the output's block column, the feature axis is never tiled; the output's block indices stay in range. -/
theorem idx_facts : ∀ t : Fin cfg3.N,
    win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 2) = 0
    ∧ win3_2.index t (1 : Fin 2) = win3_3.index t (1 : Fin 2)
    ∧ win3_3.index t (0 : Fin 2) ≤ 1 ∧ win3_3.index t (1 : Fin 2) ≤ 3 :=
  (by decide +kernel : ∀ t : Fin grid3.N, _)

/-- Every block of the output is some point's. -/
theorem idx_onto : ∀ (q0 : Fin 2) (q1 : Fin 4), ∃ t : Fin cfg3.N, win3_3.index t = ![q0.val, q1.val] :=
  (by decide +kernel : ∀ (q0 : Fin 2) (q1 : Fin 4), ∃ t : Fin grid3.N, win3_3.index t = ![q0.val, q1.val])

/-- What point `t` writes back is block `t` of the layer's function of the arrays the region was entered with. -/
theorem flushed_eq (c : Dev nD) (t : Fin cfg3.N) :
    (dat3 V c).flushed 3 t = ((cfg3.win 3).blk t).view.read (Elt Ideal)
      (Cert.Dense.dense4096 (V c main_v22) (V c main_v23) (V c main_v24)) := by
  show (cfg3.win 3).cut (grid3.coords t) ((dat3 V c).after 3 t) = _
  rw [after3_3]
  unfold out3_3
  rw [View.canon_unit_zero zero_off]
  simp only [View.ld_unit_zero (S := S512x4096) zero_off, View.ld_unit_zero (S := S1024x4096) zero_off,
    View.ld_unit_zero (S := S1x1024) zero_off]
  obtain ⟨e0, e1, e2, e3, e4, e5, -, -⟩ := idx_facts t
  funext j
  obtain ⟨p, q, rfl⟩ : ∃ (p : Fin 512) (q : Fin 1024), j = ix2 p q := ⟨j 0, j 1, eq_ix2 j⟩
  show k3_pay1 (F := Ideal) (iblk3 V c 0 t) (iblk3 V c 1 t) (iblk3 V c 2 t) (ix2 p q)
      = Cert.Dense.dense4096 (V c main_v22) (V c main_v23) (V c main_v24) (((cfg3.win 3).blk t).view.emb (ix2 p q))
  rw [BlockDense.k3_pay1_at]
  unfold Cert.Dense.dense4096
  have hx : ∀ k : Fin 4096, ((cfg3.win 0).blk t).view.emb (ix2 p k)
      = ix2 ((((cfg3.win 3).blk t).view.emb (ix2 p q)) 0) k := fun k => by
    funext a; apply Fin.ext
    match a with
    | ⟨0, _⟩ => show win3_0.index t (0 : Fin 2) * 512 + 1 * p.val = win3_3.index t (0 : Fin 2) * 512 + 1 * p.val; omega
    | ⟨1, _⟩ => show win3_0.index t (1 : Fin 2) * 4096 + 1 * k.val = k.val; omega
  have hw : ∀ k : Fin 4096, ((cfg3.win 1).blk t).view.emb (ix2 q k)
      = ix2 ((((cfg3.win 3).blk t).view.emb (ix2 p q)) 1) k := fun k => by
    funext a; apply Fin.ext
    match a with
    | ⟨0, _⟩ => show win3_1.index t (0 : Fin 2) * 1024 + 1 * q.val = win3_3.index t (1 : Fin 2) * 1024 + 1 * q.val; omega
    | ⟨1, _⟩ => show win3_1.index t (1 : Fin 2) * 4096 + 1 * k.val = k.val; omega
  have hb : ((cfg3.win 2).blk t).view.emb (ix2 0 q)
      = ix2 0 ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 1024 + 1 * q.val = win3_3.index t (1 : Fin 2) * 1024 + 1 * q.val; omega
  refine congrArg₂ (fun a b : EReal => a + b) (Finset.sum_congr rfl fun k _ => ?_) ?_
  · exact congrArg₂ (fun a b : EReal => a * b) (congrArg (V c main_v22) (hx k)) (congrArg (V c main_v23) (hw k))
  · exact congrArg (V c main_v24) hb

/-- An entry of the output is in point `t`'s block iff each coordinate is in the block's range on its axis. -/
theorem mem_blk (t : Fin cfg3.N) (i : S1024x4096.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v25).slice (win3_3.rect t)).set ↔ _
  rw [View.set_slice_whole, Rect.mem_set_unit]
  exact Iff.rfl

/-- Every entry of the output is in the block of the point at block row r / 512, block column c / 1024. -/
theorem covered (i : S1024x4096.Idx) :
    ∃ t : Fin cfg3.N, (cfg3.win 3).flush t = true ∧ i ∈ ((cfg3.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win3_3.index t (0 : Fin 2) = (i 0).val / 512 := congrFun ht 0
  have q1 : win3_3.index t (1 : Fin 2) = (i 1).val / 1024 := congrFun ht 1
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- The output array the region leaves is the layer's function of the arrays it was entered with. -/
theorem final (c : Dev nD) :
    (dat3 V c).arrAt 3 cfg3.N = Cert.Dense.dense4096 (V c main_v22) (V c main_v23) (V c main_v24) :=
  (dat3 V c).arrAt_eq_of_cover 3 _ (fun t _ => flushed_eq V c t) covered

end Cert.KernelIdeal.Layer3

end
-- ==== Proof.Layer4.lean ====
/-
  Region 4 of the program: the output array after the pipeline has run over its grid.

  The grid has 4 column tiles (outer) by 2 row tiles (inner).  At a point the pipeline stages rows
  [512·i, 512·i + 512) of the activations, rows [1024·j, 1024·j + 1024) of the weights and entries
  [1024·j, 1024·j + 1024) of the bias row, and writes back the block of the output at block row i, block
  column j.  Each input block sits at a fixed place relative to the output block, so what a point writes
  back is the restriction to its block of ONE function of the three whole arrays,

      out[r, c] = Σ_k x[r, k] · w[c, k] + b[0, c]       (k over the 4096 features),

  and the eight blocks tile the 1024 × 4096 output: the point covering entry (r, c) is the one with
  i = r / 512 and j = c / 1024.  Hence the array the region leaves is that function everywhere.
-/
import proofs.«168182_j89678917141217_1_alg».proof.Proof.Gen.KernelIdeal.Frame
import proofs.«168182_j89678917141217_1_alg».proof.Proof.BlockDense
import proofs.«168182_j89678917141217_1_alg».proof.Proof.Dense

set_option maxRecDepth 16384

noncomputable section

namespace Cert.KernelIdeal.Layer4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where each input block sits relative to the output block, decided over the eight grid points: the
    activations' block row is the output's block row, the weights' block row and the bias's block column are
    the output's block column, the feature axis is never tiled; the output's block indices stay in range. -/
theorem idx_facts : ∀ t : Fin cfg4.N,
    win4_0.index t (0 : Fin 2) = win4_3.index t (0 : Fin 2)
    ∧ win4_0.index t (1 : Fin 2) = 0
    ∧ win4_1.index t (0 : Fin 2) = win4_3.index t (1 : Fin 2)
    ∧ win4_1.index t (1 : Fin 2) = 0
    ∧ win4_2.index t (0 : Fin 2) = 0
    ∧ win4_2.index t (1 : Fin 2) = win4_3.index t (1 : Fin 2)
    ∧ win4_3.index t (0 : Fin 2) ≤ 1 ∧ win4_3.index t (1 : Fin 2) ≤ 3 :=
  (by decide +kernel : ∀ t : Fin grid4.N, _)

/-- Every block of the output is some point's. -/
theorem idx_onto : ∀ (q0 : Fin 2) (q1 : Fin 4), ∃ t : Fin cfg4.N, win4_3.index t = ![q0.val, q1.val] :=
  (by decide +kernel : ∀ (q0 : Fin 2) (q1 : Fin 4), ∃ t : Fin grid4.N, win4_3.index t = ![q0.val, q1.val])

/-- What point `t` writes back is block `t` of the layer's function of the arrays the region was entered with. -/
theorem flushed_eq (c : Dev nD) (t : Fin cfg4.N) :
    (dat4 V c).flushed 3 t = ((cfg4.win 3).blk t).view.read (Elt Ideal)
      (Cert.Dense.dense4096 (V c main_v25) (V c main_v26) (V c main_v27)) := by
  show (cfg4.win 3).cut (grid4.coords t) ((dat4 V c).after 3 t) = _
  rw [after4_3]
  unfold out4_3
  rw [View.canon_unit_zero zero_off]
  simp only [View.ld_unit_zero (S := S512x4096) zero_off, View.ld_unit_zero (S := S1024x4096) zero_off,
    View.ld_unit_zero (S := S1x1024) zero_off]
  obtain ⟨e0, e1, e2, e3, e4, e5, -, -⟩ := idx_facts t
  funext j
  obtain ⟨p, q, rfl⟩ : ∃ (p : Fin 512) (q : Fin 1024), j = ix2 p q := ⟨j 0, j 1, eq_ix2 j⟩
  show k4_pay1 (F := Ideal) (iblk4 V c 0 t) (iblk4 V c 1 t) (iblk4 V c 2 t) (ix2 p q)
      = Cert.Dense.dense4096 (V c main_v25) (V c main_v26) (V c main_v27) (((cfg4.win 3).blk t).view.emb (ix2 p q))
  rw [BlockDense.k4_pay1_at]
  unfold Cert.Dense.dense4096
  have hx : ∀ k : Fin 4096, ((cfg4.win 0).blk t).view.emb (ix2 p k)
      = ix2 ((((cfg4.win 3).blk t).view.emb (ix2 p q)) 0) k := fun k => by
    funext a; apply Fin.ext
    match a with
    | ⟨0, _⟩ => show win4_0.index t (0 : Fin 2) * 512 + 1 * p.val = win4_3.index t (0 : Fin 2) * 512 + 1 * p.val; omega
    | ⟨1, _⟩ => show win4_0.index t (1 : Fin 2) * 4096 + 1 * k.val = k.val; omega
  have hw : ∀ k : Fin 4096, ((cfg4.win 1).blk t).view.emb (ix2 q k)
      = ix2 ((((cfg4.win 3).blk t).view.emb (ix2 p q)) 1) k := fun k => by
    funext a; apply Fin.ext
    match a with
    | ⟨0, _⟩ => show win4_1.index t (0 : Fin 2) * 1024 + 1 * q.val = win4_3.index t (1 : Fin 2) * 1024 + 1 * q.val; omega
    | ⟨1, _⟩ => show win4_1.index t (1 : Fin 2) * 4096 + 1 * k.val = k.val; omega
  have hb : ((cfg4.win 2).blk t).view.emb (ix2 0 q)
      = ix2 0 ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 1024 + 1 * q.val = win4_3.index t (1 : Fin 2) * 1024 + 1 * q.val; omega
  refine congrArg₂ (fun a b : EReal => a + b) (Finset.sum_congr rfl fun k _ => ?_) ?_
  · exact congrArg₂ (fun a b : EReal => a * b) (congrArg (V c main_v25) (hx k)) (congrArg (V c main_v26) (hw k))
  · exact congrArg (V c main_v27) hb

/-- An entry of the output is in point `t`'s block iff each coordinate is in the block's range on its axis. -/
theorem mem_blk (t : Fin cfg4.N) (i : S1024x4096.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v28).slice (win4_3.rect t)).set ↔ _
  rw [View.set_slice_whole, Rect.mem_set_unit]
  exact Iff.rfl

/-- Every entry of the output is in the block of the point at block row r / 512, block column c / 1024. -/
theorem covered (i : S1024x4096.Idx) :
    ∃ t : Fin cfg4.N, (cfg4.win 3).flush t = true ∧ i ∈ ((cfg4.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win4_3.index t (0 : Fin 2) = (i 0).val / 512 := congrFun ht 0
  have q1 : win4_3.index t (1 : Fin 2) = (i 1).val / 1024 := congrFun ht 1
  refine ⟨t, flush4_3 t, ?_⟩
  rw [mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- The output array the region leaves is the layer's function of the arrays it was entered with. -/
theorem final (c : Dev nD) :
    (dat4 V c).arrAt 3 cfg4.N = Cert.Dense.dense4096 (V c main_v25) (V c main_v26) (V c main_v27) :=
  (dat4 V c).arrAt_eq_of_cover 3 _ (fun t _ => flushed_eq V c t) covered

end Cert.KernelIdeal.Layer4

end
-- ==== Proof.RefLayers.lean ====
/-
  The reference's five layers, each as the dense layer of the stage before it.

  The reference computes a layer as  (previous stage) · (weights transposed) + (bias spread over the rows).
  Read at an entry (r, c) the product is the sum over the features k of the previous stage at (r, k) times the
  transposed weights at (k, c), which is the weights at (c, k); the spread bias at (r, c) is the bias at c.
  That is the dense layer of the previous stage with the weights as given and the bias as a row.
-/
import proofs.«168182_j89678917141217_1_alg».proof.Proof.Gen.ReferenceIdeal.Read
import proofs.«168182_j89678917141217_1_alg».proof.Proof.Dense

noncomputable section

namespace Cert.ReferenceIdeal.RefLayers

open Cert.ReferenceIdeal Cert.ReferenceIdeal.Read Idealize.ShloMosaic Idealize.ShloMosaic.ValueIdx Cert.Dense

variable (x0 : (⟨S1024x128, .i32⟩ : BufTy).Contents (Elt Ideal)) (x1 : (⟨S1024x128, .f32⟩ : BufTy).Contents (Elt Ideal))
  (x2 : (⟨S50257x1024, .f32⟩ : BufTy).Contents (Elt Ideal)) (x3 : (⟨S4096x1024, .f32⟩ : BufTy).Contents (Elt Ideal))
  (x4 x6 x8 x10 x12 : (⟨S4096, .f32⟩ : BufTy).Contents (Elt Ideal))
  (x5 x7 x9 x11 : (⟨S4096x4096, .f32⟩ : BufTy).Contents (Elt Ideal))

/-- Layer 1 of the reference: the product with the transposed weights plus the bias spread over the rows is the
    dense layer of the previous stage. -/
theorem layer1 : val_main_v17 (F := Ideal) x0 x1 x2 x3 x4 = dense1024 (val_main_v12 (F := Ideal) x0 x1 x2) x3 (row x4) := by
  funext i
  rw [val_main_v17_apply, val_main_v14_apply, val_main_v16_apply, val_main_v15_apply]
  simp only [val_main_v13_apply]
  unfold dense1024 row
  have e1 : ∀ k : Fin 1024, lidx_main_v14 i k = ix2 (i 0) k := fun k => funext fun a => Fin.ext (by
    match a with
    | ⟨0, _⟩ => rfl
    | ⟨1, _⟩ => rfl)
  have e2 : ∀ k : Fin 1024, idx_main_v13 (ridx_main_v14 i k) = ix2 (i 1) k := fun k => funext fun a => Fin.ext (by
    match a with
    | ⟨0, _⟩ => rfl
    | ⟨1, _⟩ => rfl)
  have e3 : idx_main_v15 (idx_main_v16 i) = ix1 (i 1) := funext fun a => Fin.ext (by
    match a with
    | ⟨0, _⟩ => rfl)
  refine congrArg₂ (fun a b : EReal => a + b) (Finset.sum_congr rfl fun k _ => ?_) ?_
  · exact congrArg₂ (fun a b : EReal => a * b) (congrArg _ (e1 k)) (congrArg x3 (e2 k))
  · exact congrArg x4 e3

/-- Layer 2 of the reference: the product with the transposed weights plus the bias spread over the rows is the
    dense layer of the previous stage. -/
theorem layer2 : val_main_v22 (F := Ideal) x0 x1 x2 x3 x4 x5 x6 = dense4096 (val_main_v17 (F := Ideal) x0 x1 x2 x3 x4) x5 (row x6) := by
  funext i
  rw [val_main_v22_apply, val_main_v19_apply, val_main_v21_apply, val_main_v20_apply]
  simp only [val_main_v18_apply]
  unfold dense4096 row
  have e1 : ∀ k : Fin 4096, lidx_main_v19 i k = ix2 (i 0) k := fun k => funext fun a => Fin.ext (by
    match a with
    | ⟨0, _⟩ => rfl
    | ⟨1, _⟩ => rfl)
  have e2 : ∀ k : Fin 4096, idx_main_v18 (ridx_main_v19 i k) = ix2 (i 1) k := fun k => funext fun a => Fin.ext (by
    match a with
    | ⟨0, _⟩ => rfl
    | ⟨1, _⟩ => rfl)
  have e3 : idx_main_v20 (idx_main_v21 i) = ix1 (i 1) := funext fun a => Fin.ext (by
    match a with
    | ⟨0, _⟩ => rfl)
  refine congrArg₂ (fun a b : EReal => a + b) (Finset.sum_congr rfl fun k _ => ?_) ?_
  · exact congrArg₂ (fun a b : EReal => a * b) (congrArg _ (e1 k)) (congrArg x5 (e2 k))
  · exact congrArg x6 e3

/-- Layer 3 of the reference: the product with the transposed weights plus the bias spread over the rows is the
    dense layer of the previous stage. -/
theorem layer3 : val_main_v27 (F := Ideal) x0 x1 x2 x3 x4 x5 x6 x7 x8 = dense4096 (val_main_v22 (F := Ideal) x0 x1 x2 x3 x4 x5 x6) x7 (row x8) := by
  funext i
  rw [val_main_v27_apply, val_main_v24_apply, val_main_v26_apply, val_main_v25_apply]
  simp only [val_main_v23_apply]
  unfold dense4096 row
  have e1 : ∀ k : Fin 4096, lidx_main_v24 i k = ix2 (i 0) k := fun k => funext fun a => Fin.ext (by
    match a with
    | ⟨0, _⟩ => rfl
    | ⟨1, _⟩ => rfl)
  have e2 : ∀ k : Fin 4096, idx_main_v23 (ridx_main_v24 i k) = ix2 (i 1) k := fun k => funext fun a => Fin.ext (by
    match a with
    | ⟨0, _⟩ => rfl
    | ⟨1, _⟩ => rfl)
  have e3 : idx_main_v25 (idx_main_v26 i) = ix1 (i 1) := funext fun a => Fin.ext (by
    match a with
    | ⟨0, _⟩ => rfl)
  refine congrArg₂ (fun a b : EReal => a + b) (Finset.sum_congr rfl fun k _ => ?_) ?_
  · exact congrArg₂ (fun a b : EReal => a * b) (congrArg _ (e1 k)) (congrArg x7 (e2 k))
  · exact congrArg x8 e3

/-- Layer 4 of the reference: the product with the transposed weights plus the bias spread over the rows is the
    dense layer of the previous stage. -/
theorem layer4 : val_main_v32 (F := Ideal) x0 x1 x2 x3 x4 x5 x6 x7 x8 x9 x10 = dense4096 (val_main_v27 (F := Ideal) x0 x1 x2 x3 x4 x5 x6 x7 x8) x9 (row x10) := by
  funext i
  rw [val_main_v32_apply, val_main_v29_apply, val_main_v31_apply, val_main_v30_apply]
  simp only [val_main_v28_apply]
  unfold dense4096 row
  have e1 : ∀ k : Fin 4096, lidx_main_v29 i k = ix2 (i 0) k := fun k => funext fun a => Fin.ext (by
    match a with
    | ⟨0, _⟩ => rfl
    | ⟨1, _⟩ => rfl)
  have e2 : ∀ k : Fin 4096, idx_main_v28 (ridx_main_v29 i k) = ix2 (i 1) k := fun k => funext fun a => Fin.ext (by
    match a with
    | ⟨0, _⟩ => rfl
    | ⟨1, _⟩ => rfl)
  have e3 : idx_main_v30 (idx_main_v31 i) = ix1 (i 1) := funext fun a => Fin.ext (by
    match a with
    | ⟨0, _⟩ => rfl)
  refine congrArg₂ (fun a b : EReal => a + b) (Finset.sum_congr rfl fun k _ => ?_) ?_
  · exact congrArg₂ (fun a b : EReal => a * b) (congrArg _ (e1 k)) (congrArg x9 (e2 k))
  · exact congrArg x10 e3

/-- Layer 5 of the reference: the product with the transposed weights plus the bias spread over the rows is the
    dense layer of the previous stage. -/
theorem layer5 : val_main_v37 (F := Ideal) x0 x1 x2 x3 x4 x5 x6 x7 x8 x9 x10 x11 x12 = dense4096 (val_main_v32 (F := Ideal) x0 x1 x2 x3 x4 x5 x6 x7 x8 x9 x10) x11 (row x12) := by
  funext i
  rw [val_main_v37_apply, val_main_v34_apply, val_main_v36_apply, val_main_v35_apply]
  simp only [val_main_v33_apply]
  unfold dense4096 row
  have e1 : ∀ k : Fin 4096, lidx_main_v34 i k = ix2 (i 0) k := fun k => funext fun a => Fin.ext (by
    match a with
    | ⟨0, _⟩ => rfl
    | ⟨1, _⟩ => rfl)
  have e2 : ∀ k : Fin 4096, idx_main_v33 (ridx_main_v34 i k) = ix2 (i 1) k := fun k => funext fun a => Fin.ext (by
    match a with
    | ⟨0, _⟩ => rfl
    | ⟨1, _⟩ => rfl)
  have e3 : idx_main_v35 (idx_main_v36 i) = ix1 (i 1) := funext fun a => Fin.ext (by
    match a with
    | ⟨0, _⟩ => rfl)
  refine congrArg₂ (fun a b : EReal => a + b) (Finset.sum_congr rfl fun k _ => ?_) ?_
  · exact congrArg₂ (fun a b : EReal => a * b) (congrArg _ (e1 k)) (congrArg x11 (e2 k))
  · exact congrArg x12 e3

end Cert.ReferenceIdeal.RefLayers

end
-- ==== Proof.Chain.lean ====
/-
  The program's result, read back through its run to the reference's stages.

  The run is a fold over boundaries: a stretch of host operations rewrites the buffers it writes and keeps
  the rest; a region replaces its output array by what its write-backs leave and keeps the rest.  No host
  operation and no region writes an argument, so an argument read at any boundary is the argument as
  launched.  Reading the fold at the buffers each region is entered with gives:

    * the first region's activations are the pooled embeddings (the gather, the weighting by the scores,
      the sum over the 128 tokens, the division by 128), its weights the first weight matrix, its bias the
      first bias as a row — the narrowing of the float format being the identity on extended reals;
    * every later region's activations are the previous region's output, its weights and bias the next
      weight matrix and bias.

  Each region's output is the dense layer of these (the region's closed form), and the reference's stage
  after each bias add is the dense layer of its previous stage, so region by region the output array IS the
  reference's stage.  The host operations after the last region (the widening, the projection onto the four
  labels, the bias, the log-softmax) are the reference's, applied to equal arrays.
-/
import proofs.«168182_j89678917141217_1_alg».proof.Proof.ValueRun
import proofs.«168182_j89678917141217_1_alg».proof.Proof.Layer0
import proofs.«168182_j89678917141217_1_alg».proof.Proof.Layer1
import proofs.«168182_j89678917141217_1_alg».proof.Proof.Layer2
import proofs.«168182_j89678917141217_1_alg».proof.Proof.Layer3
import proofs.«168182_j89678917141217_1_alg».proof.Proof.Layer4
import proofs.«168182_j89678917141217_1_alg».proof.Proof.RefLayers
import Idealize.ShloMosaic.Lib.ValueLayout
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo
open Cert.Dense Cert.ReferenceIdeal.Read Cert.ReferenceIdeal.RefLayers

variable (m : (ℓ : Loc nD τ sig) → Buf (Elt Ideal) ℓ) (ρ : Dev nD → PrngReg) (c : Dev nD)

/-- A vector reshaped to one row is the vector laid out as a row. -/
theorem reshape_row (b : (⟨1, ![4096]⟩ : Shape).Idx → EReal) (h : (⟨1, ![4096]⟩ : Shape).ShapeCasts ⟨2, ![1, 4096]⟩) :
    shapeCast ⟨2, ![1, 4096]⟩ b h = row b := by
  funext j
  obtain ⟨u, i, rfl⟩ : ∃ (u : Fin 1) (i : Fin 4096), j = ix2 u i := ⟨j 0, j 1, eq_ix2 j⟩
  exact shapeCast_a_1a_apply b h u i

/-! ## The arguments read at the boundary where a host stretch casts them -/

theorem kept2_arg5 : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  dsimp only [hostOps0]
  after_results

theorem kept2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]
  after_results

theorem kept4_arg7 : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  dsimp only [hostOps1]
  after_results
  rw [W2_of_ne m ρ c main_arg7 (by decide)]
  show StableHlo.after hostOps0 (W0 m ρ c) (Proc.devRef .tc main_arg7) = _
  dsimp only [hostOps0]
  after_results

theorem kept4_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  dsimp only [hostOps1]
  after_results
  rw [W2_of_ne m ρ c main_arg8 (by decide)]
  show StableHlo.after hostOps0 (W0 m ρ c) (Proc.devRef .tc main_arg8) = _
  dsimp only [hostOps0]
  after_results

theorem kept6_arg9 : W6 m ρ c (Proc.devRef .tc main_arg9) = m ((c : Thread nD τ).loc main_arg9) := by
  rw [W6_of_ne m ρ c main_arg9 (by decide)]
  show StableHlo.after hostOps2 (W4 m ρ c) (Proc.devRef .tc main_arg9) = _
  dsimp only [hostOps2]
  after_results
  rw [W4_of_ne m ρ c main_arg9 (by decide)]
  show StableHlo.after hostOps1 (W2 m ρ c) (Proc.devRef .tc main_arg9) = _
  dsimp only [hostOps1]
  after_results
  rw [W2_of_ne m ρ c main_arg9 (by decide)]
  show StableHlo.after hostOps0 (W0 m ρ c) (Proc.devRef .tc main_arg9) = _
  dsimp only [hostOps0]
  after_results

theorem kept6_arg10 : W6 m ρ c (Proc.devRef .tc main_arg10) = m ((c : Thread nD τ).loc main_arg10) := by
  rw [W6_of_ne m ρ c main_arg10 (by decide)]
  show StableHlo.after hostOps2 (W4 m ρ c) (Proc.devRef .tc main_arg10) = _
  dsimp only [hostOps2]
  after_results
  rw [W4_of_ne m ρ c main_arg10 (by decide)]
  show StableHlo.after hostOps1 (W2 m ρ c) (Proc.devRef .tc main_arg10) = _
  dsimp only [hostOps1]
  after_results
  rw [W2_of_ne m ρ c main_arg10 (by decide)]
  show StableHlo.after hostOps0 (W0 m ρ c) (Proc.devRef .tc main_arg10) = _
  dsimp only [hostOps0]
  after_results

theorem kept8_arg11 : W8 m ρ c (Proc.devRef .tc main_arg11) = m ((c : Thread nD τ).loc main_arg11) := by
  rw [W8_of_ne m ρ c main_arg11 (by decide)]
  show StableHlo.after hostOps3 (W6 m ρ c) (Proc.devRef .tc main_arg11) = _
  dsimp only [hostOps3]
  after_results
  rw [W6_of_ne m ρ c main_arg11 (by decide)]
  show StableHlo.after hostOps2 (W4 m ρ c) (Proc.devRef .tc main_arg11) = _
  dsimp only [hostOps2]
  after_results
  rw [W4_of_ne m ρ c main_arg11 (by decide)]
  show StableHlo.after hostOps1 (W2 m ρ c) (Proc.devRef .tc main_arg11) = _
  dsimp only [hostOps1]
  after_results
  rw [W2_of_ne m ρ c main_arg11 (by decide)]
  show StableHlo.after hostOps0 (W0 m ρ c) (Proc.devRef .tc main_arg11) = _
  dsimp only [hostOps0]
  after_results

theorem kept8_arg12 : W8 m ρ c (Proc.devRef .tc main_arg12) = m ((c : Thread nD τ).loc main_arg12) := by
  rw [W8_of_ne m ρ c main_arg12 (by decide)]
  show StableHlo.after hostOps3 (W6 m ρ c) (Proc.devRef .tc main_arg12) = _
  dsimp only [hostOps3]
  after_results
  rw [W6_of_ne m ρ c main_arg12 (by decide)]
  show StableHlo.after hostOps2 (W4 m ρ c) (Proc.devRef .tc main_arg12) = _
  dsimp only [hostOps2]
  after_results
  rw [W4_of_ne m ρ c main_arg12 (by decide)]
  show StableHlo.after hostOps1 (W2 m ρ c) (Proc.devRef .tc main_arg12) = _
  dsimp only [hostOps1]
  after_results
  rw [W2_of_ne m ρ c main_arg12 (by decide)]
  show StableHlo.after hostOps0 (W0 m ρ c) (Proc.devRef .tc main_arg12) = _
  dsimp only [hostOps0]
  after_results

theorem kept10_arg13 : W10 m ρ c (Proc.devRef .tc main_arg13) = m ((c : Thread nD τ).loc main_arg13) := by
  rw [W10_of_ne m ρ c main_arg13 (by decide)]
  show StableHlo.after hostOps4 (W8 m ρ c) (Proc.devRef .tc main_arg13) = _
  dsimp only [hostOps4]
  after_results
  rw [W8_of_ne m ρ c main_arg13 (by decide)]
  show StableHlo.after hostOps3 (W6 m ρ c) (Proc.devRef .tc main_arg13) = _
  dsimp only [hostOps3]
  after_results
  rw [W6_of_ne m ρ c main_arg13 (by decide)]
  show StableHlo.after hostOps2 (W4 m ρ c) (Proc.devRef .tc main_arg13) = _
  dsimp only [hostOps2]
  after_results
  rw [W4_of_ne m ρ c main_arg13 (by decide)]
  show StableHlo.after hostOps1 (W2 m ρ c) (Proc.devRef .tc main_arg13) = _
  dsimp only [hostOps1]
  after_results
  rw [W2_of_ne m ρ c main_arg13 (by decide)]
  show StableHlo.after hostOps0 (W0 m ρ c) (Proc.devRef .tc main_arg13) = _
  dsimp only [hostOps0]
  after_results

theorem kept10_arg14 : W10 m ρ c (Proc.devRef .tc main_arg14) = m ((c : Thread nD τ).loc main_arg14) := by
  rw [W10_of_ne m ρ c main_arg14 (by decide)]
  show StableHlo.after hostOps4 (W8 m ρ c) (Proc.devRef .tc main_arg14) = _
  dsimp only [hostOps4]
  after_results
  rw [W8_of_ne m ρ c main_arg14 (by decide)]
  show StableHlo.after hostOps3 (W6 m ρ c) (Proc.devRef .tc main_arg14) = _
  dsimp only [hostOps3]
  after_results
  rw [W6_of_ne m ρ c main_arg14 (by decide)]
  show StableHlo.after hostOps2 (W4 m ρ c) (Proc.devRef .tc main_arg14) = _
  dsimp only [hostOps2]
  after_results
  rw [W4_of_ne m ρ c main_arg14 (by decide)]
  show StableHlo.after hostOps1 (W2 m ρ c) (Proc.devRef .tc main_arg14) = _
  dsimp only [hostOps1]
  after_results
  rw [W2_of_ne m ρ c main_arg14 (by decide)]
  show StableHlo.after hostOps0 (W0 m ρ c) (Proc.devRef .tc main_arg14) = _
  dsimp only [hostOps0]
  after_results

/-! ## Region 0: entered with the pooled embeddings, the first weights and the first bias -/

theorem entry0_x : W1 m ρ c (Proc.devRef .tc main_v13) = val_main_v12 (F := Ideal) (m ((c : Thread nD τ).loc main_arg0)) (m ((c : Thread nD τ).loc main_arg1)) (m ((c : Thread nD τ).loc main_arg2)) := by
  show StableHlo.after hostOps0 (W0 m ρ c) (Proc.devRef .tc main_v13) = _
  dsimp only [hostOps0]
  after_results
  rfl

theorem entry0_w : W1 m ρ c (Proc.devRef .tc main_v14) = (m ((c : Thread nD τ).loc main_arg3)) := by
  show StableHlo.after hostOps0 (W0 m ρ c) (Proc.devRef .tc main_v14) = _
  dsimp only [hostOps0]
  after_results
  rfl

theorem entry0_b : W1 m ρ c (Proc.devRef .tc main_v15) = row (m ((c : Thread nD τ).loc main_arg4)) := by
  show StableHlo.after hostOps0 (W0 m ρ c) (Proc.devRef .tc main_v15) = _
  dsimp only [hostOps0]
  after_results
  exact reshape_row (m ((c : Thread nD τ).loc main_arg4)) shapeCasts_S4096_S1x4096

theorem out0 : W2 m ρ c (Proc.devRef .tc main_v16) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 3).trans ((Layer0.final (V1 m ρ) c).trans (by
    show dense1024 (W1 m ρ c (Proc.devRef .tc main_v13)) (W1 m ρ c (Proc.devRef .tc main_v14)) (W1 m ρ c (Proc.devRef .tc main_v15)) = _
    rw [entry0_x, entry0_w, entry0_b]
    exact (layer1 _ _ _ _ _).symm))

/-! ## Region 1: entered with region 0's output, the next weights and the next bias -/

theorem entry1_x : W3 m ρ c (Proc.devRef .tc main_v16) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v16) = _
  dsimp only [hostOps1]
  after_results
  exact out0 m ρ c

theorem entry1_w : W3 m ρ c (Proc.devRef .tc main_v17) = (m ((c : Thread nD τ).loc main_arg5)) := by
  show StableHlo.after hostOps1 (W2 m ρ c) (Proc.devRef .tc main_v17) = _
  dsimp only [hostOps1]
  after_results
  rw [kept2_arg5]
  rfl

theorem entry1_b : W3 m ρ c (Proc.devRef .tc main_v18) = row (m ((c : Thread nD τ).loc main_arg6)) := by
  show StableHlo.after hostOps1 (W2 m ρ c) (Proc.devRef .tc main_v18) = _
  dsimp only [hostOps1]
  after_results
  rw [kept2_arg6]
  exact reshape_row (m ((c : Thread nD τ).loc main_arg6)) shapeCasts_S4096_S1x4096

theorem out1 : W4 m ρ c (Proc.devRef .tc main_v19) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 3).trans ((Layer1.final (V3 m ρ) c).trans (by
    show dense4096 (W3 m ρ c (Proc.devRef .tc main_v16)) (W3 m ρ c (Proc.devRef .tc main_v17)) (W3 m ρ c (Proc.devRef .tc main_v18)) = _
    rw [entry1_x, entry1_w, entry1_b]
    exact (layer2 _ _ _ _ _ _ _).symm))

/-! ## Region 2: entered with region 1's output, the next weights and the next bias -/

theorem entry2_x : W5 m ρ c (Proc.devRef .tc main_v19) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v19) = _
  dsimp only [hostOps2]
  after_results
  exact out1 m ρ c

theorem entry2_w : W5 m ρ c (Proc.devRef .tc main_v20) = (m ((c : Thread nD τ).loc main_arg7)) := by
  show StableHlo.after hostOps2 (W4 m ρ c) (Proc.devRef .tc main_v20) = _
  dsimp only [hostOps2]
  after_results
  rw [kept4_arg7]
  rfl

theorem entry2_b : W5 m ρ c (Proc.devRef .tc main_v21) = row (m ((c : Thread nD τ).loc main_arg8)) := by
  show StableHlo.after hostOps2 (W4 m ρ c) (Proc.devRef .tc main_v21) = _
  dsimp only [hostOps2]
  after_results
  rw [kept4_arg8]
  exact reshape_row (m ((c : Thread nD τ).loc main_arg8)) shapeCasts_S4096_S1x4096

theorem out2 : W6 m ρ c (Proc.devRef .tc main_v22) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 3).trans ((Layer2.final (V5 m ρ) c).trans (by
    show dense4096 (W5 m ρ c (Proc.devRef .tc main_v19)) (W5 m ρ c (Proc.devRef .tc main_v20)) (W5 m ρ c (Proc.devRef .tc main_v21)) = _
    rw [entry2_x, entry2_w, entry2_b]
    exact (layer3 _ _ _ _ _ _ _ _ _).symm))

/-! ## Region 3: entered with region 2's output, the next weights and the next bias -/

theorem entry3_x : W7 m ρ c (Proc.devRef .tc main_v22) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v22) = _
  dsimp only [hostOps3]
  after_results
  exact out2 m ρ c

theorem entry3_w : W7 m ρ c (Proc.devRef .tc main_v23) = (m ((c : Thread nD τ).loc main_arg9)) := by
  show StableHlo.after hostOps3 (W6 m ρ c) (Proc.devRef .tc main_v23) = _
  dsimp only [hostOps3]
  after_results
  rw [kept6_arg9]
  rfl

theorem entry3_b : W7 m ρ c (Proc.devRef .tc main_v24) = row (m ((c : Thread nD τ).loc main_arg10)) := by
  show StableHlo.after hostOps3 (W6 m ρ c) (Proc.devRef .tc main_v24) = _
  dsimp only [hostOps3]
  after_results
  rw [kept6_arg10]
  exact reshape_row (m ((c : Thread nD τ).loc main_arg10)) shapeCasts_S4096_S1x4096

theorem out3 : W8 m ρ c (Proc.devRef .tc main_v25) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 3).trans ((Layer3.final (V7 m ρ) c).trans (by
    show dense4096 (W7 m ρ c (Proc.devRef .tc main_v22)) (W7 m ρ c (Proc.devRef .tc main_v23)) (W7 m ρ c (Proc.devRef .tc main_v24)) = _
    rw [entry3_x, entry3_w, entry3_b]
    exact (layer4 _ _ _ _ _ _ _ _ _ _ _).symm))

/-! ## Region 4: entered with region 3's output, the next weights and the next bias -/

theorem entry4_x : W9 m ρ c (Proc.devRef .tc main_v25) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W8 m ρ c) (Proc.devRef .tc main_v25) = _
  dsimp only [hostOps4]
  after_results
  exact out3 m ρ c

theorem entry4_w : W9 m ρ c (Proc.devRef .tc main_v26) = (m ((c : Thread nD τ).loc main_arg11)) := by
  show StableHlo.after hostOps4 (W8 m ρ c) (Proc.devRef .tc main_v26) = _
  dsimp only [hostOps4]
  after_results
  rw [kept8_arg11]
  rfl

theorem entry4_b : W9 m ρ c (Proc.devRef .tc main_v27) = row (m ((c : Thread nD τ).loc main_arg12)) := by
  show StableHlo.after hostOps4 (W8 m ρ c) (Proc.devRef .tc main_v27) = _
  dsimp only [hostOps4]
  after_results
  rw [kept8_arg12]
  exact reshape_row (m ((c : Thread nD τ).loc main_arg12)) shapeCasts_S4096_S1x4096

theorem out4 : W10 m ρ c (Proc.devRef .tc main_v28) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W10_arr m ρ c 3).trans ((Layer4.final (V9 m ρ) c).trans (by
    show dense4096 (W9 m ρ c (Proc.devRef .tc main_v25)) (W9 m ρ c (Proc.devRef .tc main_v26)) (W9 m ρ c (Proc.devRef .tc main_v27)) = _
    rw [entry4_x, entry4_w, entry4_b]
    exact (layer5 _ _ _ _ _ _ _ _ _ _ _ _ _).symm))

/-! ## After the last region: the projection onto the labels and the log-softmax -/

/-- The result buffer at the last boundary is the reference's last stage of the launched arguments. -/
theorem result : W12 m ρ c (Proc.devRef .tc main_v35) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps5_1 (StableHlo.after hostOps5 (W10 m ρ c)) (Proc.devRef .tc main_v35) = _
  dsimp only [hostOps5_1, hostOps5]
  after_results_simp
  rw [out4, kept10_arg13, kept10_arg14]
  rfl

end Cert.KernelIdeal.Chain

end
-- ==== Proof.lean ====
/-
  The certificate of a five-layer dense network over pooled embeddings, against its reference.

  Both programs gather one embedding row per token, weight it by the token's score, average over the 128
  tokens, push the result through five dense layers, project onto four labels and take a log-softmax.  The
  kernel computes each dense layer in a pipelined region that tiles the output 2 × 4 and narrows its
  operands to a shorter float format; the reference computes it as one product with the transposed weights.
  On extended reals a change of float format is the identity and a tiled product into a zero accumulator is
  the same sum of products, entry by entry, so after every layer the two programs hold the same array, and
  the operations before the first layer and after the last are the same operations.

  * The frames: each program terminates without a fault and leaves its arguments as launched.
  * The idealized kernel is the kernel's own text read at the ideal values: nothing was rewritten.
  * The value claim: the idealized kernel's result (its run read boundary by boundary, each region's output
    by its closed form) and the reference's result (its run read stage by stage) are one term of the
    launched arguments.  No step uses that the inputs are finite: only sums and products are re-indexed.
-/
import proofs.«168182_j89678917141217_1_alg».proof.Defs
import proofs.«168182_j89678917141217_1_alg».proof.Proof.Gen.Kernel
import proofs.«168182_j89678917141217_1_alg».proof.Proof.Gen.Kernel.Frame
import proofs.«168182_j89678917141217_1_alg».proof.Proof.Gen.KernelIdeal
import proofs.«168182_j89678917141217_1_alg».proof.Proof.Gen.KernelIdeal.Frame
import proofs.«168182_j89678917141217_1_alg».proof.Proof.Gen.ReferenceIdeal
import proofs.«168182_j89678917141217_1_alg».proof.Proof.Gen.Pre_finite_inputs
import proofs.«168182_j89678917141217_1_alg».proof.Proof.Gen.ReferenceIdeal.Run
import proofs.«168182_j89678917141217_1_alg».proof.Proof.Gen.ReferenceIdeal.Read
import proofs.«168182_j89678917141217_1_alg».proof.Proof.ValueRun
import proofs.«168182_j89678917141217_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed terminates, faults nowhere and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the ideal values. -/
theorem preserves : Cert.preserves_Kernel_KernelIdeal := trivial

/-- From memories that agree on the arguments both programs end with the reference's last stage of those
    arguments in their result buffers. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Chain.result m ρ c), (h c).2⟩)
      (Cert.KernelIdeal.ValueRun.run_result (F := Ideal) m ρ), ?_⟩
  refine (θ_run Cert.ReferenceIdeal.defs _ _).mono (fun r h c => ⟨(h c).1.trans ((Cert.ReferenceIdeal.Read.val_main_v43_eq m' c).trans ?_), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
